-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S512x512 : Shape := ⟨2, ![512, 512]⟩
abbrev S512 : Shape := ⟨1, ![512]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S32x1024x512 .f32) (main_arg1 : FVec F S32x1024x512 .f32) (main_arg2 : FVec F S512x512 .f32) (main_arg3 : FVec F S512 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32x1024x512 .f32 := Host.absf main_arg1
  let main_cst_0 : FVec F S_ .f32 := constant S_ .f32 0x7F800000#32
  let main_v5 : FVec F S32x1024x512 .f32 := broadcastInDim S32x1024x512 ![] bcast_S_S32x1024x512 main_cst_0
  let main_v6 : IVec S32x1024x512 1 := cmpf .olt main_v4 main_v5
  let main_c_1 : IVec S_ 1 := constantI S_ 1 1#1
  let main_v7 : IVec S_ 1 := (fun x v => Host.reduce IntOp.andi x v reducesTo_S32x1024x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S32x1024x512 : Shape := ⟨3, ![32, 1024, 512]⟩
abbrev S512x512 : Shape := ⟨2, ![512, 512]⟩
abbrev S512 : Shape := ⟨1, ![512]⟩
abbrev S1x512 : Shape := ⟨2, ![1, 512]⟩
abbrev S32x1024x1024 : Shape := ⟨3, ![32, 1024, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S32x1024x512, .f32⟩
  | .hbm, ⟨1, _⟩ => ⟨S32x1024x512, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S32x1024x512, .f32⟩
  | .hbm, ⟨6, _⟩ => ⟨S32x1024x1024, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S512x512, .f32⟩
  | .local _ .vmem, ⟨5, _⟩ => ⟨S1x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x1024, .f32⟩
  | .local _ .vmem, ⟨9, _⟩ => ⟨S1x1024x1024, .f32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x1024_S1024 : S1024x1024.Reduces [1] S1024
  shapeCasts_S1024_S1024x1 : S1024.ShapeCasts S1024x1
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S1024x512_S1x1024x512 : S1024x512.ShapeCasts S1x1024x512
  dot_S1024x512_S512x512_S1024x512_1_1_0_0_n_n_wf : DotDims.WF S1024x512 S512x512 S1024x512 [1] [1] [0] [0] [] []
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S32x1024x512.size a
  hwx0_1 : ∀ i : grid0.Coords, EltTy.bits .f32 = 32 ∨ (Rect.block (s := S32x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S32x1024x512.size a
  hwx0_4 : ∀ i : grid0.Coords, EltTy.bits .f32 = 32 ∨ (Rect.block (s := S32x1024x512) S1x1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S32x1024x1024.size a
  hwx0_5 : ∀ i : grid0.Coords, EltTy.bits .f32 = 32 ∨ (Rect.block (s := S32x1024x1024) S1x1024x1024.size (cc0_transform_5 i) (hinb0_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S512x512 : Shape := ⟨2, ![512, 512]⟩
abbrev S512 : Shape := ⟨1, ![512]⟩
abbrev S1x1x512 : Shape := ⟨3, ![1, 1, 512]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x1024x512, .f32⟩
  | .hbm, ⟨2, _⟩ => ⟨S512x512, .f32⟩
  | .hbm, ⟨3, _⟩ => ⟨S512, .f32⟩
  | .hbm, ⟨4, _⟩ => ⟨S32x1024x512, .f32⟩
  | .hbm, ⟨5, _⟩ => ⟨S1x1x512, .f32⟩
  | .hbm, ⟨6, _⟩ => ⟨S32x1024x512, .f32⟩
  | .hbm, ⟨7, _⟩ => ⟨S32x1024x512, .f32⟩
  | .hbm, ⟨8, _⟩ => ⟨S32x1024x1024, .f32⟩
  | .hbm, ⟨9, _⟩ => ⟨S_, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024x1, .f32⟩
  | .hbm, ⟨15, _⟩ => ⟨S32x1024x1024, .f32⟩
  | .hbm, ⟨16, _⟩ => ⟨S32x1024x1024, .f32⟩
  | .hbm, ⟨17, _⟩ => ⟨S32x1024x1024, .f32⟩
  | .hbm, ⟨18, _⟩ => ⟨S_, .f32⟩
  | .hbm, ⟨19, _⟩ => ⟨S32x1024, .f32⟩
  | .hbm, ⟨20, _⟩ => ⟨S32x1024x1, .f32⟩
  | .hbm, ⟨21, _⟩ => ⟨S32x1024x1024, .f32⟩
  | .hbm, ⟨22, _⟩ => ⟨S32x1024x1024, .f32⟩
  | .hbm, ⟨23, _⟩ => ⟨S32x1024x512, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x512_S512x512_S32x1024x512_2_1_01_0_n_n_wf : DotDims.WF S32x1024x512 S512x512 S32x1024x512 [2] [1] [0, 1] [0] [] []
  dot_S32x1024x512_S32x1024x512_S32x1024x1024_2_2_1_1_0_0_wf : DotDims.WF S32x1024x512 S32x1024x512 S32x1024x1024 [2] [2] [1] [1] [0] [0]
  dot_S32x1024x1024_S32x1024x512_S32x1024x512_2_1_1_2_0_0_wf : DotDims.WF S32x1024x1024 S32x1024x512 S32x1024x512 [2] [1] [1] [2] [0] [0]

variable [Facts₀]

def dot_S32x1024x512_S512x512_S32x1024x512_2_1_01_0_n_n : DotDims S32x1024x512 S512x512 S32x1024x512 where
  lhsContracting := [2]
  rhsContracting := [1]
  lhsNonContracting := [0, 1]
  rhsNonContracting := [0]
  lhsBatch := []
  rhsBatch := []
  wf := dot_S32x1024x512_S512x512_S32x1024x512_2_1_01_0_n_n_wf
def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf

class Facts : Prop extends Facts₀ where

variable [Facts]
-- ==== Proof.Attention.lean ====
/-
  Attention with a projected query, one batch element at a time, on the extended reals.

  For one batch element let `q` and `k` be the query's and the keys' rows (1024 rows of 512 entries), `w` the
  512 × 512 weight matrix and `b` the bias. The projected query is `q wᵀ + b`; the score of query row `t` against
  key row `j` is the inner product of the projected row `t` with key row `j`; a row of scores is turned into weights
  by subtracting the row's maximum, exponentiating and dividing by the row's sum of exponentials; and the context of
  row `t` is the weighted sum of the key rows. Every sum is a finite sum on the extended reals, where addition and
  multiplication are commutative and associative, so nothing below depends on how a sum is grouped.

  The whole arrays (a batch of 32) are read off the same definitions, the batch element being the index's first
  coordinate.
-/
import Idealize.ShloMosaic.PureOps.Ideal
import Idealize.ShloMosaic.Lib.ValueIdx

noncomputable section

open scoped BigOperators

namespace Cert.Attention

open Idealize.ShloMosaic Idealize.ShloMosaic.ValueIdx

variable (q k : Fin 1024 → Fin 512 → EReal) (w : Fin 512 → Fin 512 → EReal) (b : Fin 512 → EReal)

/-- Entry `(t, o)` of the projected query: row `t` of the query against row `o` of the weights, plus the bias. -/
def proj (t : Fin 1024) (o : Fin 512) : EReal := (∑ h : Fin 512, q t h * w o h) + b o

/-- The score of query row `t` against key row `j`. -/
def score (t j : Fin 1024) : EReal := ∑ h : Fin 512, proj q w b t h * k j h

/-- The largest score of row `t`: the fold of `max` over the row, started at the word of minus infinity. -/
def rowTop (t : Fin 1024) : EReal :=
  (Finset.univ : Finset (Fin 1024)).fold max (Ideal.ofBits .f32 0xFF800000#32) (fun j => score q k w b t j)

/-- The exponential of a score less its row's largest. -/
def numer (t j : Fin 1024) : EReal := Ideal.exp (score q k w b t j - rowTop q k w b t)

/-- The row's sum of those exponentials. -/
def denom (t : Fin 1024) : EReal := ∑ j : Fin 1024, numer q k w b t j

/-- The attention weight of key row `j` for query row `t`. -/
def weight (t j : Fin 1024) : EReal := Ideal.div (numer q k w b t j) (denom q k w b t)

/-- Entry `(t, o)` of the context: the key rows' entries `o` weighted by row `t`'s weights. -/
def context (t : Fin 1024) (o : Fin 512) : EReal := ∑ j : Fin 1024, weight q k w b t j * k j o

/-! ## The whole arrays -/

/-- Batch element `n` of a `[32, 1024, 512]` array, as rows. -/
def rowsOf (X : (⟨3, ![32, 1024, 512]⟩ : Shape).Idx → EReal) (n : Fin 32) : Fin 1024 → Fin 512 → EReal :=
  fun t h => X (ix3 n t h)

/-- A `[512, 512]` array as a matrix. -/
def matOf (W : (⟨2, ![512, 512]⟩ : Shape).Idx → EReal) : Fin 512 → Fin 512 → EReal := fun o h => W (ix2 o h)

/-- A `[512]` array as a vector. -/
def vecOf (B : (⟨1, ![512]⟩ : Shape).Idx → EReal) : Fin 512 → EReal := fun o => B (ix1 o)

/-- The attention weights of the whole batch. -/
def weights (Q K : (⟨3, ![32, 1024, 512]⟩ : Shape).Idx → EReal) (W : (⟨2, ![512, 512]⟩ : Shape).Idx → EReal)
    (B : (⟨1, ![512]⟩ : Shape).Idx → EReal) : (⟨3, ![32, 1024, 1024]⟩ : Shape).Idx → EReal :=
  fun i => weight (rowsOf Q (i 0)) (rowsOf K (i 0)) (matOf W) (vecOf B) (i 1) (i 2)

/-- The contexts of the whole batch. -/
def contexts (Q K : (⟨3, ![32, 1024, 512]⟩ : Shape).Idx → EReal) (W : (⟨2, ![512, 512]⟩ : Shape).Idx → EReal)
    (B : (⟨1, ![512]⟩ : Shape).Idx → EReal) : (⟨3, ![32, 1024, 512]⟩ : Shape).Idx → EReal :=
  fun i => context (rowsOf Q (i 0)) (rowsOf K (i 0)) (matOf W) (vecOf B) (i 1) (i 2)

/-- Taking the maximum with the fold's own starting value changes nothing: the fold is at least its start. -/
theorem max_start_fold {ι : Type} (s : Finset ι) (a : EReal) (f : ι → EReal) : max a (s.fold max a f) = s.fold max a f :=
  max_eq_right ((Finset.le_fold_max a).mpr (Or.inl le_rfl))

end Cert.Attention

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.Payload.lean ====
/-
  What the kernel's body computes from the blocks it loads, read at an index.

  At one grid point the body loads the point's query block and keys block (each `[1, 1024, 512]`: one batch element),
  the whole weight matrix and the bias as a row `[1, 512]`. Changes of float format are the identity on the extended
  reals and a matrix product into a zero accumulator is the plain sum of products, so, entry by entry: the first product
  plus the broadcast bias row is the projected query of `Attention.lean`, the second product its scores against the key
  rows, the lane maximum the row's largest score, the exponentials, their lane sum and the quotient the weights, and the
  last product the context. The two stored values are these with a leading unit axis.
-/
import proofs.«121847_j12893491822631_2_alg».proof.Proof.Gen.KernelIdeal.Skeleton
import proofs.«121847_j12893491822631_2_alg».proof.Proof.Attention
import proofs.«121847_j12893491822631_2_alg».proof.Proof.LibRows
import proofs.«121847_j12893491822631_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.Attention
open Idealize.ShloMosaic Idealize.ShloMosaic.ValueIdx

/-! ## The three matrix products, into a zero accumulator, at an entry -/

theorem rows_times_rows_512_lhs_kept (i : S1024x512.Idx) (q : dot_S1024x512_S512x512_S1024x512_1_1_0_0_n_n.contr.Idx) : (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem rows_times_rows_512_rhs_kept (i : S1024x512.Idx) (q : dot_S1024x512_S512x512_S1024x512_1_1_0_0_n_n.contr.Idx) : (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rows_times_rows_512_lhs_summed (i : S1024x512.Idx) (q : dot_S1024x512_S512x512_S1024x512_1_1_0_0_n_n.contr.Idx) : (dot_S1024x512_S512x512_S1024x512_1_1_0_0_n_n.lhsIdx i q 1).val = (q ⟨0, by decide⟩).val :=
  dot_S1024x512_S512x512_S1024x512_1_1_0_0_n_n.lhsIdx_val_of_single rfl i q
theorem rows_times_rows_512_rhs_summed (i : S1024x512.Idx) (q : dot_S1024x512_S512x512_S1024x512_1_1_0_0_n_n.contr.Idx) : (dot_S1024x512_S512x512_S1024x512_1_1_0_0_n_n.rhsIdx i q 1).val = (q ⟨0, by decide⟩).val :=
  dot_S1024x512_S512x512_S1024x512_1_1_0_0_n_n.rhsIdx_val_of_single rfl i q

/-- A `[1024, 512]` matrix against the rows of a `[512, 512]` one (both contracted over their second axis): entry `(r, c)` is row `r` against row `c`. -/
theorem rows_times_rows_512 {φ₁ φ₂ : FTy} (L : FVec Ideal S1024x512 φ₁) (R : FVec Ideal S512x512 φ₂) (r : Fin 1024) (c : Fin 512) :
    matmul dot_S1024x512_S512x512_S1024x512_1_1_0_0_n_n none L R (constant (F := Ideal) S1024x512 .f32 0x00000000#32) (ix2 r c)
      = ∑ s : Fin 512, L (ix2 r s) * R (ix2 c s) := by
  show FloatOps.matmul dot_S1024x512_S512x512_S1024x512_1_1_0_0_n_n none L R (constant (F := Ideal) S1024x512 .f32 0x00000000#32) (ix2 r c) = _
  rw [Ideal.matmul_constant_zero_apply, ← Equiv.sum_comp (contrEquiv1 dot_S1024x512_S512x512_S1024x512_1_1_0_0_n_n 512 rfl rfl).symm]
  refine Finset.sum_congr rfl fun s _ => ?_
  have hs := contrEquiv1_symm_val dot_S1024x512_S512x512_S1024x512_1_1_0_0_n_n 512 rfl rfl s
  have el : dot_S1024x512_S512x512_S1024x512_1_1_0_0_n_n.lhsIdx (ix2 r c) ((contrEquiv1 dot_S1024x512_S512x512_S1024x512_1_1_0_0_n_n 512 rfl rfl).symm s) = ix2 r s := funext fun a => Fin.ext (by
    match a with
    | ⟨0, _⟩ => exact rows_times_rows_512_lhs_kept _ _
    | ⟨1, _⟩ => exact (rows_times_rows_512_lhs_summed _ _).trans hs)
  have er : dot_S1024x512_S512x512_S1024x512_1_1_0_0_n_n.rhsIdx (ix2 r c) ((contrEquiv1 dot_S1024x512_S512x512_S1024x512_1_1_0_0_n_n 512 rfl rfl).symm s) = ix2 c s := funext fun a => Fin.ext (by
    match a with
    | ⟨0, _⟩ => exact rows_times_rows_512_rhs_kept _ _
    | ⟨1, _⟩ => exact (rows_times_rows_512_rhs_summed _ _).trans hs)
  rw [el, er]

theorem rows_times_rows_1024_lhs_kept (i : S1024x1024.Idx) (q : dot_S1024x512_S1024x512_S1024x1024_1_1_0_0_n_n.contr.Idx) : (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem rows_times_rows_1024_rhs_kept (i : S1024x1024.Idx) (q : dot_S1024x512_S1024x512_S1024x1024_1_1_0_0_n_n.contr.Idx) : (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rows_times_rows_1024_lhs_summed (i : S1024x1024.Idx) (q : dot_S1024x512_S1024x512_S1024x1024_1_1_0_0_n_n.contr.Idx) : (dot_S1024x512_S1024x512_S1024x1024_1_1_0_0_n_n.lhsIdx i q 1).val = (q ⟨0, by decide⟩).val :=
  dot_S1024x512_S1024x512_S1024x1024_1_1_0_0_n_n.lhsIdx_val_of_single rfl i q
theorem rows_times_rows_1024_rhs_summed (i : S1024x1024.Idx) (q : dot_S1024x512_S1024x512_S1024x1024_1_1_0_0_n_n.contr.Idx) : (dot_S1024x512_S1024x512_S1024x1024_1_1_0_0_n_n.rhsIdx i q 1).val = (q ⟨0, by decide⟩).val :=
  dot_S1024x512_S1024x512_S1024x1024_1_1_0_0_n_n.rhsIdx_val_of_single rfl i q

/-- A `[1024, 512]` matrix against the rows of another (both contracted over their second axis): entry `(r, c)` is row `r` against row `c`. -/
theorem rows_times_rows_1024 {φ₁ φ₂ : FTy} (L : FVec Ideal S1024x512 φ₁) (R : FVec Ideal S1024x512 φ₂) (r : Fin 1024) (c : Fin 1024) :
    matmul dot_S1024x512_S1024x512_S1024x1024_1_1_0_0_n_n none L R (constant (F := Ideal) S1024x1024 .f32 0x00000000#32) (ix2 r c)
      = ∑ s : Fin 512, L (ix2 r s) * R (ix2 c s) := by
  show FloatOps.matmul dot_S1024x512_S1024x512_S1024x1024_1_1_0_0_n_n none L R (constant (F := Ideal) S1024x1024 .f32 0x00000000#32) (ix2 r c) = _
  rw [Ideal.matmul_constant_zero_apply, ← Equiv.sum_comp (contrEquiv1 dot_S1024x512_S1024x512_S1024x1024_1_1_0_0_n_n 512 rfl rfl).symm]
  refine Finset.sum_congr rfl fun s _ => ?_
  have hs := contrEquiv1_symm_val dot_S1024x512_S1024x512_S1024x1024_1_1_0_0_n_n 512 rfl rfl s
  have el : dot_S1024x512_S1024x512_S1024x1024_1_1_0_0_n_n.lhsIdx (ix2 r c) ((contrEquiv1 dot_S1024x512_S1024x512_S1024x1024_1_1_0_0_n_n 512 rfl rfl).symm s) = ix2 r s := funext fun a => Fin.ext (by
    match a with
    | ⟨0, _⟩ => exact rows_times_rows_1024_lhs_kept _ _
    | ⟨1, _⟩ => exact (rows_times_rows_1024_lhs_summed _ _).trans hs)
  have er : dot_S1024x512_S1024x512_S1024x1024_1_1_0_0_n_n.rhsIdx (ix2 r c) ((contrEquiv1 dot_S1024x512_S1024x512_S1024x1024_1_1_0_0_n_n 512 rfl rfl).symm s) = ix2 c s := funext fun a => Fin.ext (by
    match a with
    | ⟨0, _⟩ => exact rows_times_rows_1024_rhs_kept _ _
    | ⟨1, _⟩ => exact (rows_times_rows_1024_rhs_summed _ _).trans hs)
  rw [el, er]

theorem rows_times_cols_lhs_kept (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem rows_times_cols_rhs_kept (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl
theorem rows_times_cols_lhs_summed (i : S1024x512.Idx) (q : dot_S1024x1024_S1024x512_S1024x512_1_0_0_1_n_n.contr.Idx) : (dot_S1024x1024_S1024x512_S1024x512_1_0_0_1_n_n.lhsIdx i q 1).val = (q ⟨0, by decide⟩).val :=
  dot_S1024x1024_S1024x512_S1024x512_1_0_0_1_n_n.lhsIdx_val_of_single rfl i q
theorem rows_times_cols_rhs_summed (i : S1024x512.Idx) (q : dot_S1024x1024_S1024x512_S1024x512_1_0_0_1_n_n.contr.Idx) : (dot_S1024x1024_S1024x512_S1024x512_1_0_0_1_n_n.rhsIdx i q 0).val = (q ⟨0, by decide⟩).val :=
  dot_S1024x1024_S1024x512_S1024x512_1_0_0_1_n_n.rhsIdx_val_of_single rfl i q

/-- The ordinary product of a `[1024, 1024]` matrix with a `[1024, 512]` one: entry `(r, c)` is row `r` against column `c`. -/
theorem rows_times_cols {φ₁ φ₂ : FTy} (L : FVec Ideal S1024x1024 φ₁) (R : FVec Ideal S1024x512 φ₂) (r : Fin 1024) (c : Fin 512) :
    matmul dot_S1024x1024_S1024x512_S1024x512_1_0_0_1_n_n none L R (constant (F := Ideal) S1024x512 .f32 0x00000000#32) (ix2 r c)
      = ∑ s : Fin 1024, L (ix2 r s) * R (ix2 s c) := by
  show FloatOps.matmul dot_S1024x1024_S1024x512_S1024x512_1_0_0_1_n_n none L R (constant (F := Ideal) S1024x512 .f32 0x00000000#32) (ix2 r c) = _
  rw [Ideal.matmul_constant_zero_apply, ← Equiv.sum_comp (contrEquiv1 dot_S1024x1024_S1024x512_S1024x512_1_0_0_1_n_n 1024 rfl rfl).symm]
  refine Finset.sum_congr rfl fun s _ => ?_
  have hs := contrEquiv1_symm_val dot_S1024x1024_S1024x512_S1024x512_1_0_0_1_n_n 1024 rfl rfl s
  have el : dot_S1024x1024_S1024x512_S1024x512_1_0_0_1_n_n.lhsIdx (ix2 r c) ((contrEquiv1 dot_S1024x1024_S1024x512_S1024x512_1_0_0_1_n_n 1024 rfl rfl).symm s) = ix2 r s := funext fun a => Fin.ext (by
    match a with
    | ⟨0, _⟩ => exact rows_times_cols_lhs_kept _ _
    | ⟨1, _⟩ => exact (rows_times_cols_lhs_summed _ _).trans hs)
  have er : dot_S1024x1024_S1024x512_S1024x512_1_0_0_1_n_n.rhsIdx (ix2 r c) ((contrEquiv1 dot_S1024x1024_S1024x512_S1024x512_1_0_0_1_n_n 1024 rfl rfl).symm s) = ix2 s c := funext fun a => Fin.ext (by
    match a with
    | ⟨1, _⟩ => exact rows_times_cols_rhs_kept _ _
    | ⟨0, _⟩ => exact (rows_times_cols_rhs_summed _ _).trans hs)
  rw [el, er]

/-! ## The body's values, named -/

variable (P0 : Vec Ideal S1x1024x512 .f32) (P1 : Vec Ideal S512x512 .f32) (P2 : Vec Ideal S1x1024x512 .f32) (P3 : Vec Ideal S1x512 .f32)

/-- A loaded `[1, 1024, 512]` block as rows. -/
def rowsOfBlock (P : Vec Ideal S1x1024x512 .f32) : Fin 1024 → Fin 512 → EReal := fun r h => P (ix3 (0 : Fin 1) r h)

/-- The loaded bias row as a vector. -/
def vecOfRow (P : Vec Ideal S1x512 .f32) : Fin 512 → EReal := fun o => P (ix2 (0 : Fin 1) o)

/-- The projected query block. -/
def projV : FVec Ideal S1024x512 .f32 :=
  addf (matmul dot_S1024x512_S512x512_S1024x512_1_1_0_0_n_n none (truncf .bf16 (shapeCast S1024x512 P0 shapeCasts_S1x1024x512_S1024x512) bitsLt_bf16_f32)
      (truncf .bf16 P1 bitsLt_bf16_f32) (constant (F := Ideal) S1024x512 .f32 0x00000000#32))
    (broadcastTo S1024x512 (shapeCast S1x512 P3 shapeCasts_S1x512_S1x512) broadcasts_S1x512_S1024x512)

/-- The scores. -/
def scoreV : FVec Ideal S1024x1024 .f32 :=
  matmul dot_S1024x512_S1024x512_S1024x1024_1_1_0_0_n_n none (truncf .bf16 (projV P0 P1 P3) bitsLt_bf16_f32) (k0_pay1 P2)
    (constant (F := Ideal) S1024x1024 .f32 0x00000000#32)

/-- Each row's largest score. -/
def topV : FVec Ideal S1024 .f32 :=
  multiReduction (F := Ideal) .maximumf [1] S1024 (scoreV P0 P1 P2 P3) 0xFF800000#32 reduces_S1024x1024_S1024 (.inl rfl) rfl

/-- The exponentials of the scores less their row's largest. -/
def numerV : FVec Ideal S1024x1024 .f32 :=
  exp (subf (scoreV P0 P1 P2 P3)
    (broadcastTo S1024x1024 (shapeCast S1024x1 (topV P0 P1 P2 P3) shapeCasts_S1024_S1024x1) broadcasts_S1024x1_S1024x1024))

/-- Each row's sum of exponentials. -/
def denomV : FVec Ideal S1024 .f32 :=
  multiReduction (F := Ideal) .add [1] S1024 (numerV P0 P1 P2 P3) 0x00000000#32 reduces_S1024x1024_S1024 (.inl rfl) rfl

/-- The body's weights are the quotient of those. -/
theorem pay2_eq : k0_pay2 P0 P1 P2 P3
    = divf (numerV P0 P1 P2 P3)
        (broadcastTo S1024x1024 (shapeCast S1024x1 (denomV P0 P1 P2 P3) shapeCasts_S1024_S1024x1) broadcasts_S1024x1_S1024x1024) := rfl

/-! ## Each at an entry -/

/-- The keys block, format changed, at `(j, h)`. -/
theorem keys_at (j : Fin 1024) (h : Fin 512) : k0_pay1 P2 (ix2 j h) = rowsOfBlock P2 j h := by
  unfold k0_pay1
  rw [truncf_apply, shapeCast_1ab_ab_apply]
  rfl

theorem projV_at (r : Fin 1024) (o : Fin 512) :
    projV P0 P1 P3 (ix2 r o) = proj (rowsOfBlock P0) (matOf P1) (vecOfRow P3) r o := by
  unfold projV
  rw [addf_apply, rows_times_rows_512, broadcastTo_1b_ab_apply, shapeCast_self]
  unfold proj
  refine congrArg (· + _) (Finset.sum_congr rfl fun h _ => ?_)
  rw [truncf_apply, truncf_apply, shapeCast_1ab_ab_apply]
  rfl

theorem scoreV_at (r j : Fin 1024) :
    scoreV P0 P1 P2 P3 (ix2 r j) = score (rowsOfBlock P0) (rowsOfBlock P2) (matOf P1) (vecOfRow P3) r j := by
  unfold scoreV
  rw [rows_times_rows_1024]
  unfold score
  refine Finset.sum_congr rfl fun h _ => ?_
  rw [truncf_apply, projV_at, keys_at]

theorem topV_at (r : Fin 1024) :
    topV P0 P1 P2 P3 (ix1 r) = rowTop (rowsOfBlock P0) (rowsOfBlock P2) (matOf P1) (vecOfRow P3) r := by
  unfold topV
  refine (rowMax_apply (scoreV P0 P1 P2 P3) 0xFF800000#32 reduces_S1024x1024_S1024 (.inl rfl) rfl r).trans ?_
  have e : (fun s : Fin 1024 => scoreV P0 P1 P2 P3 (ix2 r s))
      = fun s => score (rowsOfBlock P0) (rowsOfBlock P2) (matOf P1) (vecOfRow P3) r s := funext fun s => scoreV_at P0 P1 P2 P3 r s
  rw [e]
  rfl

theorem numerV_at (r j : Fin 1024) :
    numerV P0 P1 P2 P3 (ix2 r j) = numer (rowsOfBlock P0) (rowsOfBlock P2) (matOf P1) (vecOfRow P3) r j := by
  unfold numerV
  show FloatOps.exp (subf _ _ (ix2 r j)) = _
  rw [subf_apply, broadcastTo_a1_ab_apply, shapeCast_a_a1_apply, topV_at, scoreV_at]
  rfl

theorem denomV_at (r : Fin 1024) :
    denomV P0 P1 P2 P3 (ix1 r) = denom (rowsOfBlock P0) (rowsOfBlock P2) (matOf P1) (vecOfRow P3) r := by
  unfold denomV
  refine (rowSum_apply (numerV P0 P1 P2 P3) 0x00000000#32 reduces_S1024x1024_S1024 (.inl rfl) rfl r).trans ?_
  exact Finset.sum_congr rfl fun s _ => numerV_at P0 P1 P2 P3 r s

/-- The body's weights at `(r, j)`. -/
theorem weights_at (r j : Fin 1024) :
    k0_pay2 P0 P1 P2 P3 (ix2 r j) = weight (rowsOfBlock P0) (rowsOfBlock P2) (matOf P1) (vecOfRow P3) r j := by
  rw [pay2_eq, divf_apply, broadcastTo_a1_ab_apply, shapeCast_a_a1_apply, denomV_at, numerV_at]
  rfl

/-- The stored weights at `(u, r, j)`, `u` the unit coordinate. -/
theorem stored_weights_at (u : Fin 1) (r j : Fin 1024) :
    k0_pay3 P0 P1 P2 P3 (ix3 u r j) = weight (rowsOfBlock P0) (rowsOfBlock P2) (matOf P1) (vecOfRow P3) r j := by
  unfold k0_pay3
  rw [shapeCast_ab_1ab_apply, weights_at]

/-- The stored context at `(u, r, o)`, `u` the unit coordinate. -/
theorem stored_context_at (u : Fin 1) (r : Fin 1024) (o : Fin 512) :
    k0_pay4 P0 P1 P2 P3 (ix3 u r o) = context (rowsOfBlock P0) (rowsOfBlock P2) (matOf P1) (vecOfRow P3) r o := by
  unfold k0_pay4
  rw [shapeCast_ab_1ab_apply, rows_times_cols]
  unfold context
  refine Finset.sum_congr rfl fun s _ => ?_
  rw [truncf_apply, weights_at, keys_at]

end Cert.KernelIdeal.Payload

end
-- ==== Proof.Arrays.lean ====
/-
  From the blocks the grid points write to the two result arrays.

  Grid point `n` (of 32) stages batch element `n` of the query and of the keys, the whole weight matrix and the bias as
  a row, and writes back batch element `n` of the contexts and of the weights. So what it writes is block `n` of the
  whole-batch arrays of `Attention.lean`; the 32 blocks cover each result array (index `(n, r, j)` lies in block `n`),
  and the arrays end holding the whole-batch contexts and weights of the argument arrays.
-/
import proofs.«121847_j12893491822631_2_alg».proof.Proof.Gen.KernelIdeal.Value
import proofs.«121847_j12893491822631_2_alg».proof.Proof.Payload
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Arrays

open Cert.KernelIdeal Cert.KernelIdeal.Gen Cert.KernelIdeal.Payload Cert.Attention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The batch element a grid point works on: the point's own number. -/
def bat (t : Fin cfg0.N) : Fin 32 := Fin.cast N_0 t

/-- The batch element's grid point. -/
def pointOf (n : Fin 32) : Fin cfg0.N := Fin.cast N_0.symm n

/-- The printed index maps over the grid: the batched windows sit at block `(t, 0, 0)`, the weights and the bias row
    at block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-! ## The staged blocks are the arguments' batch elements -/

/-- The bias row the region finds is the bias argument with a leading unit axis. -/
theorem bias_row (c : Dev nD) :
    (V m c main_v0 : S1x512.Idx → EReal) = shapeCast S1x512 (m ((c : Thread nD τ).loc main_arg3)) shapeCasts_S512_S1x512 := by
  dsimp only [Gen.V, Gen.hostOps0]; after_results; rfl

/-- The query block at point `t` is batch element `t` of the query. -/
theorem query_rows (c : Dev nD) (t : Fin cfg0.N) :
    rowsOfBlock (iblk m c 0 t) = rowsOf (m ((c : Thread nD τ).loc main_arg0)) (bat t) := by
  funext r h
  obtain ⟨e0, e1, e2, -⟩ := idx_facts t
  show iblk m c 0 t (ix3 (0 : Fin 1) r h) = (m ((c : Thread nD τ).loc main_arg0) : S32x1024x512.Idx → EReal) (ix3 (bat t) r h)
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 512 + 1 * h.val = h.val; omega

/-- The keys block at point `t` is batch element `t` of the keys. -/
theorem keys_rows (c : Dev nD) (t : Fin cfg0.N) :
    rowsOfBlock (iblk m c 1 t) = rowsOf (m ((c : Thread nD τ).loc main_arg1)) (bat t) := by
  funext r h
  obtain ⟨-, -, -, e0, e1, e2, -⟩ := idx_facts t
  show iblk m c 1 t (ix3 (0 : Fin 1) r h) = (m ((c : Thread nD τ).loc main_arg1) : S32x1024x512.Idx → EReal) (ix3 (bat t) r h)
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * r.val = r.val; omega
  | ⟨2, _⟩ => show win0_1.index t (2 : Fin 3) * 512 + 1 * h.val = h.val; omega

/-- The weights block at every point is the whole weight matrix. -/
theorem weight_mat (c : Dev nD) (t : Fin cfg0.N) :
    matOf (iblk m c 2 t) = matOf (m ((c : Thread nD τ).loc main_arg2)) := by
  funext o h
  obtain ⟨-, -, -, -, -, -, e0, e1, -⟩ := idx_facts t
  show iblk m c 2 t (ix2 o h) = (m ((c : Thread nD τ).loc main_arg2) : S512x512.Idx → EReal) (ix2 o h)
  unfold iblk
  rw [View.read_apply]
  show V m c main_arg2 _ = _
  rw [V_main_arg2]
  refine congrArg _ (funext fun a => Fin.ext ?_)
  match a with
  | ⟨0, _⟩ => show win0_2.index t (0 : Fin 2) * 512 + 1 * o.val = o.val; omega
  | ⟨1, _⟩ => show win0_2.index t (1 : Fin 2) * 512 + 1 * h.val = h.val; omega

/-- The bias block at every point is the bias argument. -/
theorem bias_vec (c : Dev nD) (t : Fin cfg0.N) :
    vecOfRow (iblk m c 3 t) = vecOf (m ((c : Thread nD τ).loc main_arg3)) := by
  funext o
  obtain ⟨-, -, -, -, -, -, -, -, e0, e1, -⟩ := idx_facts t
  show iblk m c 3 t (ix2 (0 : Fin 1) o) = (m ((c : Thread nD τ).loc main_arg3) : S512.Idx → EReal) (ix1 o)
  unfold iblk
  rw [View.read_apply]
  show (V m c main_v0 : S1x512.Idx → EReal) _ = _
  rw [bias_row]
  have e : ((cfg0.win 3).blk t).view.emb (ix2 (0 : Fin 1) o) = ix2 (0 : Fin 1) o := funext fun a => Fin.ext (by
    match a with
    | ⟨0, _⟩ => show win0_3.index t (0 : Fin 2) * 1 + 1 * 0 = 0; omega
    | ⟨1, _⟩ => show win0_3.index t (1 : Fin 2) * 512 + 1 * o.val = o.val; omega)
  rw [e, shapeCast_a_1a_apply]

/-! ## What a point writes back -/

/-- Point `t` writes back block `t` of the whole-batch weights. -/
theorem flushed_weights (c : Dev nD) (t : Fin cfg0.N) :
    (dats m 0 c).flushed 5 t = ((cfg0.win 5).blk t).view.read (Elt Ideal)
      (weights (m ((c : Thread nD τ).loc main_arg0)) (m ((c : Thread nD τ).loc main_arg1))
        (m ((c : Thread nD τ).loc main_arg2)) (m ((c : Thread nD τ).loc main_arg3))) := by
  rw [Value.flushed5]
  unfold out0_5
  rw [View.canon_unit_zero hz3]
  simp only [View.ld_unit_zero (S := S1x1024x512) hz3, View.ld_unit_zero (S := S512x512) hz2, View.ld_unit_zero (S := S1x512) hz2]
  obtain ⟨-, -, -, -, -, -, -, -, -, -, -, -, -, f0, f1, f2⟩ := idx_facts t
  refine funext fun (y : S1x1024x1024.Idx) => ?_
  obtain ⟨u, r, j, rfl⟩ : ∃ (u : Fin 1) (r j : Fin 1024), y = ix3 u r j := ⟨y 0, y 1, y 2, eq_ix3 y⟩
  show k0_pay3 (iblk m c 0 t) (iblk m c 2 t) (iblk m c 1 t) (iblk m c 3 t) (ix3 u r j)
    = weights _ _ _ _ (((cfg0.win 5).blk t).view.emb (ix3 u r j))
  refine (stored_weights_at (iblk m c 0 t) (iblk m c 2 t) (iblk m c 1 t) (iblk m c 3 t) u r j).trans ?_
  rw [query_rows m c t, keys_rows m c t, weight_mat m c t, bias_vec m c t]
  have e : ((cfg0.win 5).blk t).view.emb (ix3 u r j) = ix3 (bat t) r j := funext fun a => Fin.ext (by
    have hu : u.val = 0 := by omega
    match a with
    | ⟨0, _⟩ => show win0_5.index t (0 : Fin 3) * 1 + 1 * u.val = t.val; omega
    | ⟨1, _⟩ => show win0_5.index t (1 : Fin 3) * 1024 + 1 * r.val = r.val; omega
    | ⟨2, _⟩ => show win0_5.index t (2 : Fin 3) * 1024 + 1 * j.val = j.val; omega)
  rw [e]
  rfl

/-- Point `t` writes back block `t` of the whole-batch contexts. -/
theorem flushed_contexts (c : Dev nD) (t : Fin cfg0.N) :
    (dats m 0 c).flushed 4 t = ((cfg0.win 4).blk t).view.read (Elt Ideal)
      (contexts (m ((c : Thread nD τ).loc main_arg0)) (m ((c : Thread nD τ).loc main_arg1))
        (m ((c : Thread nD τ).loc main_arg2)) (m ((c : Thread nD τ).loc main_arg3))) := by
  rw [Value.flushed4]
  unfold out0_4
  rw [View.canon_unit_zero hz3]
  simp only [View.ld_unit_zero (S := S1x1024x512) hz3, View.ld_unit_zero (S := S512x512) hz2, View.ld_unit_zero (S := S1x512) hz2]
  obtain ⟨-, -, -, -, -, -, -, -, -, -, f0, f1, f2, -⟩ := idx_facts t
  refine funext fun (y : S1x1024x512.Idx) => ?_
  obtain ⟨u, r, o, rfl⟩ : ∃ (u : Fin 1) (r : Fin 1024) (o : Fin 512), y = ix3 u r o := ⟨y 0, y 1, y 2, eq_ix3 y⟩
  show k0_pay4 (iblk m c 0 t) (iblk m c 2 t) (iblk m c 1 t) (iblk m c 3 t) (ix3 u r o)
    = contexts _ _ _ _ (((cfg0.win 4).blk t).view.emb (ix3 u r o))
  refine (stored_context_at (iblk m c 0 t) (iblk m c 2 t) (iblk m c 1 t) (iblk m c 3 t) u r o).trans ?_
  rw [query_rows m c t, keys_rows m c t, weight_mat m c t, bias_vec m c t]
  have e : ((cfg0.win 4).blk t).view.emb (ix3 u r o) = ix3 (bat t) r o := funext fun a => Fin.ext (by
    have hu : u.val = 0 := by omega
    match a with
    | ⟨0, _⟩ => show win0_4.index t (0 : Fin 3) * 1 + 1 * u.val = t.val; omega
    | ⟨1, _⟩ => show win0_4.index t (1 : Fin 3) * 1024 + 1 * r.val = r.val; omega
    | ⟨2, _⟩ => show win0_4.index t (2 : Fin 3) * 512 + 1 * o.val = o.val; omega)
  rw [e]
  rfl

/-! ## The blocks cover the arrays -/

/-- An index is in point `t`'s block of the weights iff each coordinate is in the block's range. -/
theorem mem_block_weights (t : Fin cfg0.N) (i : S32x1024x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v1_1).slice (win0_5.rect t)).set ↔ _
  rw [View.set_slice_whole, Rect.mem_set_unit]
  exact Iff.rfl

/-- An index is in point `t`'s block of the contexts iff each coordinate is in the block's range. -/
theorem mem_block_contexts (t : Fin cfg0.N) (i : S32x1024x512.Idx) :
    i ∈ ((cfg0.win 4).blk t).view.set ↔ ∀ a : Fin 3, win0_4.index t a * S1x1024x512.size a ≤ (i a).val
      ∧ (i a).val < win0_4.index t a * S1x1024x512.size a + S1x1024x512.size a := by
  show i ∈ ((View.whole main_v1_0).slice (win0_4.rect t)).set ↔ _
  rw [View.set_slice_whole, Rect.mem_set_unit]
  exact Iff.rfl

/-- Index `(n, r, j)` of the weights lies in point `n`'s block. -/
theorem cover_weights (i : S32x1024x1024.Idx) :
    ∃ t : Fin cfg0.N, (cfg0.win 5).flush t = true ∧ i ∈ ((cfg0.win 5).blk t).view.set := by
  refine ⟨pointOf (i 0), flush0_5 _, ?_⟩
  rw [mem_block_weights]
  obtain ⟨-, -, -, -, -, -, -, -, -, -, -, -, -, f0, f1, f2⟩ := idx_facts (pointOf (i 0))
  have hv : (pointOf (i 0)).val = (i 0).val := rfl
  have h1 : (i 1).val < 1024 := (i 1).isLt
  have h2 : (i 2).val < 1024 := (i 2).isLt
  intro a
  match a with
  | ⟨0, _⟩ => show win0_5.index (pointOf (i 0)) (0 : Fin 3) * 1 ≤ (i 0).val ∧ (i 0).val < win0_5.index (pointOf (i 0)) (0 : Fin 3) * 1 + 1; omega
  | ⟨1, _⟩ => show win0_5.index (pointOf (i 0)) (1 : Fin 3) * 1024 ≤ (i 1).val ∧ (i 1).val < win0_5.index (pointOf (i 0)) (1 : Fin 3) * 1024 + 1024; omega
  | ⟨2, _⟩ => show win0_5.index (pointOf (i 0)) (2 : Fin 3) * 1024 ≤ (i 2).val ∧ (i 2).val < win0_5.index (pointOf (i 0)) (2 : Fin 3) * 1024 + 1024; omega

/-- Index `(n, r, o)` of the contexts lies in point `n`'s block. -/
theorem cover_contexts (i : S32x1024x512.Idx) :
    ∃ t : Fin cfg0.N, (cfg0.win 4).flush t = true ∧ i ∈ ((cfg0.win 4).blk t).view.set := by
  refine ⟨pointOf (i 0), flush0_4 _, ?_⟩
  rw [mem_block_contexts]
  obtain ⟨-, -, -, -, -, -, -, -, -, -, f0, f1, f2, -⟩ := idx_facts (pointOf (i 0))
  have hv : (pointOf (i 0)).val = (i 0).val := rfl
  have h1 : (i 1).val < 1024 := (i 1).isLt
  have h2 : (i 2).val < 512 := (i 2).isLt
  intro a
  match a with
  | ⟨0, _⟩ => show win0_4.index (pointOf (i 0)) (0 : Fin 3) * 1 ≤ (i 0).val ∧ (i 0).val < win0_4.index (pointOf (i 0)) (0 : Fin 3) * 1 + 1; omega
  | ⟨1, _⟩ => show win0_4.index (pointOf (i 0)) (1 : Fin 3) * 1024 ≤ (i 1).val ∧ (i 1).val < win0_4.index (pointOf (i 0)) (1 : Fin 3) * 1024 + 1024; omega
  | ⟨2, _⟩ => show win0_4.index (pointOf (i 0)) (2 : Fin 3) * 512 ≤ (i 2).val ∧ (i 2).val < win0_4.index (pointOf (i 0)) (2 : Fin 3) * 512 + 512; omega

/-! ## The arrays after the run -/

/-- The weights array ends holding the whole-batch weights of the arguments. -/
theorem final_weights (c : Dev nD) :
    (dats m 0 c).arrAt 5 cfg0.N = weights (m ((c : Thread nD τ).loc main_arg0)) (m ((c : Thread nD τ).loc main_arg1))
      (m ((c : Thread nD τ).loc main_arg2)) (m ((c : Thread nD τ).loc main_arg3)) :=
  (dats m 0 c).arrAt_eq_of_cover 5 _ (fun t _ => flushed_weights m c t) fun i => cover_weights i

/-- The contexts array ends holding the whole-batch contexts of the arguments. -/
theorem final_contexts (c : Dev nD) :
    (dats m 0 c).arrAt 4 cfg0.N = contexts (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_contexts m c t) fun i => cover_contexts i

/-- The kernel's run, read: the two result arrays at the contexts and the weights of the argument arrays, the
    arguments unchanged. -/
theorem run : θ_run defs (onTc (τ := τ) (main (F := Ideal))) ⟨m, fun _ => 0, ρ⟩ fun r => ∀ c : Dev nD,
      r.2.mem ((c : Thread nD τ).loc main_v1_0) = contexts (m ((c : Thread nD τ).loc main_arg0)) (m ((c : Thread nD τ).loc main_arg1))
        (m ((c : Thread nD τ).loc main_arg2)) (m ((c : Thread nD τ).loc main_arg3))
      ∧ r.2.mem ((c : Thread nD τ).loc main_v1_1) = weights (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_contexts m c), (h c).2.1.trans (final_weights m c), (h c).2.2⟩)
    (Value.run_blocks m ρ)

end Cert.KernelIdeal.Arrays

end
-- ==== Proof.RefValue.lean ====
/-
  The reference computes the attention of `Attention.lean`.

  The reference's host operations, read one at a time at an index written by coordinates `(n, t, j)` (batch element,
  query row, key row or feature): the first product and the added bias are the projected query; the batched product
  with the keys over the feature axis is the score; the maximum over the last axis, taken once more against minus
  infinity, is the row's largest score (a maximum with the fold's own start changes nothing); the exponentials, their
  sum over the last axis started at zero, and the quotient are the weights; the batched product of the weights with
  the keys over the key-row axis is the context.
-/
import proofs.«121847_j12893491822631_2_alg».proof.Proof.Gen.ReferenceIdeal.Read
import proofs.«121847_j12893491822631_2_alg».proof.Proof.Attention
import proofs.«121847_j12893491822631_2_alg».proof.Proof.LibRows

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

variable (x0 x1 : (⟨S32x1024x512, .f32⟩ : BufTy).Contents (Elt Ideal)) (x2 : (⟨S512x512, .f32⟩ : BufTy).Contents (Elt Ideal))
  (x3 : (⟨S512, .f32⟩ : BufTy).Contents (Elt Ideal))

/-- The query times the weights, plus the bias, at `(n, t, o)`: the projected query of batch element `n`. -/
theorem projected_at (n : Fin 32) (t : Fin 1024) (o : Fin 512) :
    val_main_v3 (F := Ideal) x0 x2 x3 (ix3 n t o) = proj (rowsOf x0 n) (matOf x2) (vecOf x3) t o := by
  rw [val_main_v3_apply, val_main_v0_apply, val_main_v2_apply, val_main_v1_apply]
  have e1 : ∀ h : Fin 512, lidx_main_v0 (ix3 n t o) h = ix3 n t h := fun h =>
    funext fun a => Fin.ext (by match a with | ⟨0, _⟩ => rfl | ⟨1, _⟩ => rfl | ⟨2, _⟩ => rfl)
  have e2 : ∀ h : Fin 512, ridx_main_v0 (ix3 n t o) h = ix2 o h := fun h =>
    funext fun a => Fin.ext (by match a with | ⟨0, _⟩ => rfl | ⟨1, _⟩ => rfl)
  have e3 : idx_main_v1 (idx_main_v2 (ix3 n t o)) = ix1 o :=
    funext fun a => Fin.ext (by match a with | ⟨0, _⟩ => rfl)
  simp only [e1, e2, e3]
  rfl

/-- The product with the keys over the feature axis, at `(n, t, j)`: the score. -/
theorem score_at (n : Fin 32) (t j : Fin 1024) :
    val_main_v4 (F := Ideal) x0 x1 x2 x3 (ix3 n t j) = score (rowsOf x0 n) (rowsOf x1 n) (matOf x2) (vecOf x3) t j := by
  rw [val_main_v4_apply]
  refine Finset.sum_congr rfl fun h _ => ?_
  have e1 : lidx_main_v4 (ix3 n t j) h = ix3 n t h :=
    funext fun a => Fin.ext (by match a with | ⟨0, _⟩ => rfl | ⟨1, _⟩ => rfl | ⟨2, _⟩ => rfl)
  have e2 : ridx_main_v4 (ix3 n t j) h = ix3 n j h :=
    funext fun a => Fin.ext (by match a with | ⟨0, _⟩ => rfl | ⟨1, _⟩ => rfl | ⟨2, _⟩ => rfl)
  rw [e1, e2, projected_at]
  rfl

/-- The maximum over the last axis, at `(n, t)`: the row's largest score. -/
theorem top_at (n : Fin 32) (t : Fin 1024) :
    val_main_v5 (F := Ideal) x0 x1 x2 x3 (ix2 n t) = rowTop (rowsOf x0 n) (rowsOf x1 n) (matOf x2) (vecOf x3) t := by
  unfold val_main_v5
  rw [hostLastMax_apply _ _ _ (by decide) _ n t]
  have e : (fun s : Fin 1024 => val_main_v4 (F := Ideal) x0 x1 x2 x3 (ix3 n t s))
      = fun s => score (rowsOf x0 n) (rowsOf x1 n) (matOf x2) (vecOf x3) t s := funext fun s => score_at x0 x1 x2 x3 n t s
  rw [e]
  rfl

/-- Taken once more against minus infinity it is still the row's largest score. -/
theorem top_again_at (n : Fin 32) (t : Fin 1024) :
    val_main_v7 (F := Ideal) x0 x1 x2 x3 (ix2 n t) = rowTop (rowsOf x0 n) (rowsOf x1 n) (matOf x2) (vecOf x3) t := by
  rw [val_main_v7_apply, val_main_v6_apply, val_main_cst_0_apply, top_at]
  exact max_start_fold _ _ _

/-- The exponential of the score less the row's largest, at `(n, t, j)`. -/
theorem numer_at (n : Fin 32) (t j : Fin 1024) :
    val_main_v11 (F := Ideal) x0 x1 x2 x3 (ix3 n t j) = numer (rowsOf x0 n) (rowsOf x1 n) (matOf x2) (vecOf x3) t j := by
  rw [val_main_v11_apply, val_main_v10_apply, val_main_v9_apply, val_main_v8_apply]
  have e : idx_main_v8 (idx_main_v9 (ix3 n t j)) = ix2 n t :=
    funext fun a => Fin.ext (by match a with | ⟨0, _⟩ => rfl | ⟨1, _⟩ => rfl)
  rw [e, top_again_at, score_at]
  rfl

/-- The sum of the exponentials over the last axis, started at zero, at `(n, t)`. -/
theorem denom_at (n : Fin 32) (t : Fin 1024) :
    val_main_v12 (F := Ideal) x0 x1 x2 x3 (ix2 n t) = denom (rowsOf x0 n) (rowsOf x1 n) (matOf x2) (vecOf x3) t := by
  rw [val_main_v12_apply, val_main_cst_1_apply]
  show Ideal.ofBits .f32 0x00000000#32 + _ = _
  rw [Ideal.ofBits_zero_f32, zero_add]
  refine Finset.sum_congr rfl fun s _ => ?_
  have e : idx_main_v12 (ix2 n t) s = ix3 n t s :=
    funext fun a => Fin.ext (by match a with | ⟨0, _⟩ => rfl | ⟨1, _⟩ => rfl | ⟨2, _⟩ => rfl)
  rw [e, numer_at]

/-- The quotient, at `(n, t, j)`: the attention weight. -/
theorem weight_at (n : Fin 32) (t j : Fin 1024) :
    val_main_v15 (F := Ideal) x0 x1 x2 x3 (ix3 n t j) = weight (rowsOf x0 n) (rowsOf x1 n) (matOf x2) (vecOf x3) t j := by
  rw [val_main_v15_apply, val_main_v14_apply, val_main_v13_apply]
  have e : idx_main_v13 (idx_main_v14 (ix3 n t j)) = ix2 n t :=
    funext fun a => Fin.ext (by match a with | ⟨0, _⟩ => rfl | ⟨1, _⟩ => rfl)
  rw [e, denom_at, numer_at]
  rfl

/-- The product of the weights with the keys over the key-row axis, at `(n, t, o)`: the context. -/
theorem context_at (n : Fin 32) (t : Fin 1024) (o : Fin 512) :
    val_main_v16 (F := Ideal) x0 x1 x2 x3 (ix3 n t o) = context (rowsOf x0 n) (rowsOf x1 n) (matOf x2) (vecOf x3) t o := by
  rw [val_main_v16_apply]
  refine Finset.sum_congr rfl fun s _ => ?_
  have e1 : lidx_main_v16 (ix3 n t o) s = ix3 n t s :=
    funext fun a => Fin.ext (by match a with | ⟨0, _⟩ => rfl | ⟨1, _⟩ => rfl | ⟨2, _⟩ => rfl)
  have e2 : ridx_main_v16 (ix3 n t o) s = ix3 n s o :=
    funext fun a => Fin.ext (by match a with | ⟨0, _⟩ => rfl | ⟨1, _⟩ => rfl | ⟨2, _⟩ => rfl)
  rw [e1, e2, weight_at]
  rfl

/-- The reference's second result is the batch's attention weights. -/
theorem weights_eq : val_main_v15 (F := Ideal) x0 x1 x2 x3 = weights x0 x1 x2 x3 := by
  funext i
  obtain ⟨n, t, j, rfl⟩ : ∃ (n : Fin 32) (t j : Fin 1024), i = ix3 n t j := ⟨i 0, i 1, i 2, eq_ix3 i⟩
  exact weight_at x0 x1 x2 x3 n t j

/-- The reference's first result is the batch's contexts. -/
theorem contexts_eq : val_main_v16 (F := Ideal) x0 x1 x2 x3 = contexts x0 x1 x2 x3 := by
  funext i
  obtain ⟨n, t, o, rfl⟩ : ∃ (n : Fin 32) (t : Fin 1024) (o : Fin 512), i = ix3 n t o := ⟨i 0, i 1, i 2, eq_ix3 i⟩
  exact context_at x0 x1 x2 x3 n t o

end Cert.ReferenceIdeal.RefValue

end
-- ==== Proof.lean ====
/-
  Attention with a projected query: a fused kernel against its plain reference, on the extended reals.

  Both programs take a batch of 32 queries and keys (1024 rows of 512 features each), a 512 × 512 weight matrix and a
  bias, and return the contexts and the attention weights. For each batch element both compute: the query times the
  transposed weights plus the bias; its scores against the key rows; each row of scores less its maximum,
  exponentiated and divided by the row's sum; and the weighted sum of the key rows.

  The kernel works on one batch element per grid point with three matrix products into zero accumulators, lane
  reductions for the maximum and the sum, and changes of float format in between; the reference uses batched products
  and reductions over the last axis, and takes its row maximum once more against minus infinity. On the extended reals
  a change of format is the identity, a product into a zero accumulator is the plain sum of products, and a maximum
  with the fold's own starting value changes nothing, so entry by entry the two programs are the same expression of
  the arguments (`Attention.lean`): the kernel's arrays end at it (`Arrays.lean`, over `Payload.lean`), and so do the
  reference's (`RefValue.lean`). No law that could fail at an infinity is used, so the inputs' finiteness is not
  needed for the values; the three frames are the programs' runs with the results dropped, and the idealized kernel
  is the printed kernel's own text (no rewrite to account for).
-/
import proofs.«121847_j12893491822631_2_alg».proof.Defs
import proofs.«121847_j12893491822631_2_alg».proof.Proof.Gen.Kernel
import proofs.«121847_j12893491822631_2_alg».proof.Proof.Gen.Kernel.Skeleton
import proofs.«121847_j12893491822631_2_alg».proof.Proof.Gen.Kernel.Launch
import proofs.«121847_j12893491822631_2_alg».proof.Proof.Gen.Kernel.Points
import proofs.«121847_j12893491822631_2_alg».proof.Proof.Gen.Kernel.Frame
import proofs.«121847_j12893491822631_2_alg».proof.Proof.Gen.KernelIdeal
import proofs.«121847_j12893491822631_2_alg».proof.Proof.Gen.KernelIdeal.Skeleton
import proofs.«121847_j12893491822631_2_alg».proof.Proof.Gen.KernelIdeal.Launch
import proofs.«121847_j12893491822631_2_alg».proof.Proof.Gen.KernelIdeal.Points
import proofs.«121847_j12893491822631_2_alg».proof.Proof.Gen.KernelIdeal.Frame
import proofs.«121847_j12893491822631_2_alg».proof.Proof.Gen.ReferenceIdeal
import proofs.«121847_j12893491822631_2_alg».proof.Proof.Gen.Pre_finite_inputs
import proofs.«121847_j12893491822631_2_alg».proof.Proof.Gen.KernelIdeal.Value
import proofs.«121847_j12893491822631_2_alg».proof.Proof.Gen.ReferenceIdeal.Run
import proofs.«121847_j12893491822631_2_alg».proof.Proof.Gen.ReferenceIdeal.Read
import proofs.«121847_j12893491822631_2_alg».proof.Proof.Arrays
import proofs.«121847_j12893491822631_2_alg».proof.Proof.RefValue
import Idealize.ShloMosaic.Adequacy
import Idealize.ShloMosaic.Init

noncomputable section

namespace Cert.Proof

open Idealize.ShloMosaic Idealize.ShloMosaic.TcCoe Idealize.SL.Sem Cert.Attention

/-- The printed kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's run, its two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the contexts and the weights of those
    arguments. -/
theorem algebraic : Cert.algebraic_KernelIdeal_ReferenceIdeal := by
  intro m ρ m' ρ' _ hagree
  refine ⟨fun c => contexts (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => weights (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v16_eq _ _ _ _).trans ((Cert.ReferenceIdeal.RefValue.contexts_eq _ _ _ _).trans ?_)
    rw [(hagree c).1, (hagree c).2.1, (hagree c).2.2.1, (hagree c).2.2.2]
  · refine (Cert.ReferenceIdeal.Read.val_main_v15_eq _ _ _ _).trans ((Cert.ReferenceIdeal.RefValue.weights_eq _ _ _ _).trans ?_)
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
